-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x32 .f32) (main_arg3 : FVec F S32 .f32) (main_arg4 : FVec F S32x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x256 : Shape := ⟨2, ![10000, 256]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S5000x32 : Shape := ⟨2, ![5000, 32]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 82
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S3300000, .i32⟩
  | .hbm, ⟨22, _⟩ => ⟨S3300000, .i1⟩
  | .hbm, ⟨23, _⟩ => ⟨S_, .i32⟩
  | .hbm, ⟨24, _⟩ => ⟨S3300000, .i32⟩
  | .hbm, ⟨25, _⟩ => ⟨S3300000, .i32⟩
  | .hbm, ⟨26, _⟩ => ⟨S3300000, .i32⟩
  | .hbm, ⟨27, _⟩ => ⟨S3300000x1, .i32⟩
  | .hbm, ⟨28, _⟩ => ⟨S3300000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S100000x32, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x32, .f32⟩
  | .hbm, ⟨49, _⟩ => ⟨S3300000x1, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x16, .f32⟩
  | .hbm, ⟨63, _⟩ => ⟨S_, .i32⟩
  | .hbm, ⟨64, _⟩ => ⟨S3300000, .i32⟩
  | .hbm, ⟨65, _⟩ => ⟨S3300000, .i1⟩
  | .hbm, ⟨66, _⟩ => ⟨S_, .i32⟩
  | .hbm, ⟨67, _⟩ => ⟨S3300000, .i32⟩
  | .hbm, ⟨68, _⟩ => ⟨S3300000, .i32⟩
  | .hbm, ⟨69, _⟩ => ⟨S3300000, .i32⟩
  | .hbm, ⟨70, _⟩ => ⟨S3300000x1, .i32⟩
  | .hbm, ⟨71, _⟩ => ⟨S3300000x16, .f32⟩
  | .hbm, ⟨72, _⟩ => ⟨S3300000x1, .f32⟩
  | .hbm, ⟨73, _⟩ => ⟨S3300000x16, .f32⟩
  | .hbm, ⟨74, _⟩ => ⟨S3300000x16, .f32⟩
  | .hbm, ⟨75, _⟩ => ⟨S_, .f32⟩
  | .hbm, ⟨76, _⟩ => ⟨S100000x16, .f32⟩
  | .hbm, ⟨77, _⟩ => ⟨S3300000x1, .i32⟩
  | .hbm, ⟨78, _⟩ => ⟨S100000x16, .f32⟩
  | .hbm, ⟨79, _⟩ => ⟨S1x16, .f32⟩
  | .hbm, ⟨80, _⟩ => ⟨S100000x16, .f32⟩
  | .hbm, ⟨81, _⟩ => ⟨S100000x16, .f32⟩
  | .local _ .vmem, ⟨0, _⟩ => ⟨S10000x256, .f32⟩
  | .local _ .vmem, ⟨1, _⟩ => ⟨S10000x256, .f32⟩
  | .local _ .vmem, ⟨2, _⟩ => ⟨S256x32, .f32⟩
  | .local _ .vmem, ⟨3, _⟩ => ⟨S10000x32, .f32⟩
  | .local _ .vmem, ⟨4, _⟩ => ⟨S10000x32, .f32⟩
  | .local _ .vmem, ⟨5, _⟩ => ⟨S5000x32, .f32⟩
  | .local _ .vmem, ⟨6, _⟩ => ⟨S5000x32, .f32⟩
  | .local _ .vmem, ⟨7, _⟩ => ⟨S32x16, .f32⟩
  | .local _ .vmem, ⟨8, _⟩ => ⟨S5000x16, .f32⟩
  | .local _ .vmem, ⟨9, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x256_S256x32_S10000x32_1_0_0_1_n_n_wf : DotDims.WF S10000x256 S256x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x256_S256x32_S10000x32_1_0_0_1_n_n : DotDims S10000x256 S256x32 S10000x32 where
  lhsContracting := [1]
  rhsContracting := [0]
  lhsNonContracting := [0]
  rhsNonContracting := [1]
  lhsBatch := []
  rhsBatch := []
  wf := dot_S10000x256_S256x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x16 : Shape := ⟨2, ![32, 16]⟩
abbrev S16 : Shape := ⟨1, ![16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x32 : Shape := ⟨2, ![100000, 32]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x32, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S3300000, .i32⟩
  | .hbm, ⟨23, _⟩ => ⟨S3300000, .i1⟩
  | .hbm, ⟨24, _⟩ => ⟨S_, .i32⟩
  | .hbm, ⟨25, _⟩ => ⟨S3300000, .i32⟩
  | .hbm, ⟨26, _⟩ => ⟨S3300000, .i32⟩
  | .hbm, ⟨27, _⟩ => ⟨S3300000, .i32⟩
  | .hbm, ⟨28, _⟩ => ⟨S3300000x1, .i32⟩
  | .hbm, ⟨29, _⟩ => ⟨S3300000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x32, .f32⟩
  | .hbm, ⟨49, _⟩ => ⟨S3300000x1, .f32⟩
  | .hbm, ⟨50, _⟩ => ⟨S3300000x32, .f32⟩
  | .hbm, ⟨51, _⟩ => ⟨S3300000x32, .f32⟩
  | .hbm, ⟨52, _⟩ => ⟨S_, .f32⟩
  | .hbm, ⟨53, _⟩ => ⟨S100000x32, .f32⟩
  | .hbm, ⟨54, _⟩ => ⟨S3300000x1, .i32⟩
  | .hbm, ⟨55, _⟩ => ⟨S100000x32, .f32⟩
  | .hbm, ⟨56, _⟩ => ⟨S1x32, .f32⟩
  | .hbm, ⟨57, _⟩ => ⟨S100000x32, .f32⟩
  | .hbm, ⟨58, _⟩ => ⟨S100000x32, .f32⟩
  | .hbm, ⟨59, _⟩ => ⟨S_, .f32⟩
  | .hbm, ⟨60, _⟩ => ⟨S100000x32, .f32⟩
  | .hbm, ⟨61, _⟩ => ⟨S100000x32, .f32⟩
  | .hbm, ⟨62, _⟩ => ⟨S100000x16, .f32⟩
  | .hbm, ⟨63, _⟩ => ⟨S_, .f32⟩
  | .hbm, ⟨64, _⟩ => ⟨S3300000, .f32⟩
  | .hbm, ⟨65, _⟩ => ⟨S_, .f32⟩
  | .hbm, ⟨66, _⟩ => ⟨S100000, .f32⟩
  | .hbm, ⟨67, _⟩ => ⟨S3300000x1, .i32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x16, .f32⟩
  | .hbm, ⟨98, _⟩ => ⟨S3300000x1, .f32⟩
  | .hbm, ⟨99, _⟩ => ⟨S3300000x16, .f32⟩
  | .hbm, ⟨100, _⟩ => ⟨S3300000x16, .f32⟩
  | .hbm, ⟨101, _⟩ => ⟨S_, .f32⟩
  | .hbm, ⟨102, _⟩ => ⟨S100000x16, .f32⟩
  | .hbm, ⟨103, _⟩ => ⟨S3300000x1, .i32⟩
  | .hbm, ⟨104, _⟩ => ⟨S100000x16, .f32⟩
  | .hbm, ⟨105, _⟩ => ⟨S1x16, .f32⟩
  | .hbm, ⟨106, _⟩ => ⟨S100000x16, .f32⟩
  | .hbm, ⟨107, _⟩ => ⟨S100000x16, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x256_S256x32_S100000x32_1_0_0_1_n_n_wf : DotDims.WF S100000x256 S256x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.Layers.lean ====
/-
  The two graph-convolution layers as pure functions of arrays.

  The node count is 100000, the edge list has 3200000 columns, and every node gets a self-loop, so a layer
  runs over 3300000 (source, target) pairs.  With `s`, `d` the source and target of every pair,
  the in-degree `deg v = #{e | d e = v}` and `w e = deg(s e)^(-1/2) · deg(d e)^(-1/2)`, a layer sends
  a feature table `h` to `v ↦ (∑_{e : d e = v} h (s e) · w e) + b`.  The first layer is followed by
  `max(·, 0)`.  What feeds a layer is a matrix product `x · W`; the functions below take that product as an
  argument, so that the same chain can be applied to the product however it was computed.

  Every function is spelt with exactly the host operations both programs print (gather, scatter-add,
  broadcast, select), in their order.
-/
import proofs.«125482_j67654324846925_2_alg».proof.Proof.Gen.KernelIdeal

noncomputable section

namespace Cert.KernelIdeal.Layers

open Cert.KernelIdeal Cert.KernelIdeal.Gen Idealize.ShloMosaic

variable {F : FTy → Type} [FloatOps F]

/-- Row `r` of the edge list followed by the node numbers 0 … 99999 (the self-loops): the sources for row 0. -/
def sources (e : IVec S2x3200000 32) : IVec S3300000 32 :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- The targets: row 1 of the edge list followed by the node numbers. -/
def targets (e : IVec S2x3200000 32) : IVec S3300000 32 :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A negative node number counts from the end: `i < 0 ↦ i + 100000`. -/
def wrapIdx (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- `deg^(-1/2)`: ones scattered onto the targets, then the reciprocal square root. -/
def invSqrtDeg (d : IVec S3300000 32) : FVec F S100000 .f32 :=
  Host.rsqrt (Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32)))

/-- The weight of every pair: `deg(s e)^(-1/2) · deg(d e)^(-1/2)`. -/
def pairWeight (s d : IVec S3300000 32) : FVec F S3300000 .f32 :=
  mulf (Host.gather gather_S100000_S3300000x1_S3300000_n_0_n_n_0_1_1 (invSqrtDeg (F := F) d) (broadcastInDim S3300000x1 ![0] bcast_S3300000_S3300000x1_0 (wrapIdx s)))
    (Host.gather gather_S100000_S3300000x1_S3300000_n_0_n_n_0_1_1 (invSqrtDeg (F := F) d) (broadcastInDim S3300000x1 ![0] bcast_S3300000_S3300000x1_0 (wrapIdx d)))

/-- The first layer after its matrix product `h`: weighted sum over incoming pairs, plus the bias, then `max(·, 0)`. -/
def hiddenLayer (h : FVec F S100000x32 .f32) (s d : IVec S3300000 32) (w : FVec F S3300000 .f32) (b : FVec F S32 .f32) : FVec F S100000x32 .f32 :=
  maximumf
    (addf (Host.scatterAdd scatter_S100000x32_S3300000x1_S3300000x32_1_0_0_1
        (broadcastInDim S100000x32 ![] bcast_S_S100000x32 (constant S_ .f32 0x00000000#32))
        (broadcastInDim S3300000x1 ![0] bcast_S3300000_S3300000x1_0 d)
        (mulf (Host.gather gather_S100000x32_S3300000x1_S3300000x32_1_0_n_n_0_1_132 h (broadcastInDim S3300000x1 ![0] bcast_S3300000_S3300000x1_0 (wrapIdx s)))
          (broadcastInDim S3300000x32 ![0, 1] bcast_S3300000x1_S3300000x32_0_1 (broadcastInDim S3300000x1 ![0] bcast_S3300000_S3300000x1_0 w))))
      (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- The second layer after its matrix product `h`: weighted sum over incoming pairs, plus the bias. -/
def outputLayer (h : FVec F S100000x16 .f32) (s d : IVec S3300000 32) (w : FVec F S3300000 .f32) (b : FVec F S16 .f32) : FVec F S100000x16 .f32 :=
  addf (Host.scatterAdd scatter_S100000x16_S3300000x1_S3300000x16_1_0_0_1
      (broadcastInDim S100000x16 ![] bcast_S_S100000x16 (constant S_ .f32 0x00000000#32))
      (broadcastInDim S3300000x1 ![0] bcast_S3300000_S3300000x1_0 d)
      (mulf (Host.gather gather_S100000x16_S3300000x1_S3300000x16_1_0_n_n_0_1_116 h (broadcastInDim S3300000x1 ![0] bcast_S3300000_S3300000x1_0 (wrapIdx s)))
        (broadcastInDim S3300000x16 ![0, 1] bcast_S3300000x1_S3300000x16_0_1 (broadcastInDim S3300000x1 ![0] bcast_S3300000_S3300000x1_0 w))))
    (broadcastInDim S100000x16 ![0, 1] bcast_S1x16_S100000x16_0_1 (broadcastInDim S1x16 ![1] bcast_S16_S1x16_1 b))

/-- The whole encoder over two given matrix products `P₁ : x, W₁ ↦ x·W₁` and `P₂ : h, W₂ ↦ h·W₂`. -/
def encoder (P₁ : FVec F S100000x256 .f32 → FVec F S256x32 .f32 → FVec F S100000x32 .f32)
    (P₂ : FVec F S100000x32 .f32 → FVec F S32x16 .f32 → FVec F S100000x16 .f32)
    (x : FVec F S100000x256 .f32) (e : IVec S2x3200000 32) (W₁ : FVec F S256x32 .f32) (b₁ : FVec F S32 .f32)
    (W₂ : FVec F S32x16 .f32) (b₂ : FVec F S16 .f32) : FVec F S100000x16 .f32 :=
  outputLayer (P₂ (hiddenLayer (P₁ x W₁) (sources e) (targets e) (pairWeight (F := F) (sources e) (targets e)) b₁) W₂)
    (sources e) (targets e) (pairWeight (F := F) (sources e) (targets e)) b₂

end Cert.KernelIdeal.Layers

end
-- ==== Proof.Products.lean ====
/-
  The two matrix products, index by index, and the kernels' block products.

  `rowsTimes x W` is `(x · W) (r, c) = ∑ₖ x (r, k) · W (k, c)` over the extended reals, for the two shapes
  the encoder uses (100000×256 by 256×32, and 100000×32 by 32×16).  A kernel body computes, on a block of rows,
  the MXU product of the block (rounded to bf16, which is the identity on exact values) with the whole weight
  matrix, into a zero accumulator: at a block index that is the same sum over the contracted axis.
-/
import proofs.«125482_j67654324846925_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Layers

open Cert.KernelIdeal Cert.KernelIdeal.Gen Idealize.ShloMosaic

/-! ## Indices: row `r` and contracted coordinate `k`; contracted coordinate `k` and column `c` -/

abbrev atRow1 (i : S100000x32.Idx) (k : Fin 256) : S100000x256.Idx := fun a => match a with
  | ⟨0, _⟩ => ⟨(i 0).val, (i 0).isLt⟩
  | ⟨1, _⟩ => ⟨k.val, k.isLt⟩
abbrev atCol1 (i : S100000x32.Idx) (k : Fin 256) : S256x32.Idx := fun a => match a with
  | ⟨0, _⟩ => ⟨k.val, k.isLt⟩
  | ⟨1, _⟩ => ⟨(i 1).val, (i 1).isLt⟩
abbrev atRow2 (i : S100000x16.Idx) (k : Fin 32) : S100000x32.Idx := fun a => match a with
  | ⟨0, _⟩ => ⟨(i 0).val, (i 0).isLt⟩
  | ⟨1, _⟩ => ⟨k.val, k.isLt⟩
abbrev atCol2 (i : S100000x16.Idx) (k : Fin 32) : S32x16.Idx := fun a => match a with
  | ⟨0, _⟩ => ⟨k.val, k.isLt⟩
  | ⟨1, _⟩ => ⟨(i 1).val, (i 1).isLt⟩

/-- `x · W₁` over the extended reals. -/
def rowsTimes1 (x : FVec Ideal S100000x256 .f32) (W : FVec Ideal S256x32 .f32) : FVec Ideal S100000x32 .f32 :=
  fun i => ∑ k : Fin 256, x (atRow1 i k) * W (atCol1 i k)

/-- `h · W₂` over the extended reals. -/
def rowsTimes2 (h : FVec Ideal S100000x32 .f32) (W : FVec Ideal S32x16 .f32) : FVec Ideal S100000x16 .f32 :=
  fun i => ∑ k : Fin 32, h (atRow2 i k) * W (atCol2 i k)

/-! ## The same indices inside a block of rows -/

abbrev blkRow1 (j : S10000x32.Idx) (k : Fin 256) : S10000x256.Idx := fun a => match a with
  | ⟨0, _⟩ => ⟨(j 0).val, (j 0).isLt⟩
  | ⟨1, _⟩ => ⟨k.val, k.isLt⟩
abbrev blkCol1 (j : S10000x32.Idx) (k : Fin 256) : S256x32.Idx := fun a => match a with
  | ⟨0, _⟩ => ⟨k.val, k.isLt⟩
  | ⟨1, _⟩ => ⟨(j 1).val, (j 1).isLt⟩
abbrev blkRow2 (j : S5000x16.Idx) (k : Fin 32) : S5000x32.Idx := fun a => match a with
  | ⟨0, _⟩ => ⟨(j 0).val, (j 0).isLt⟩
  | ⟨1, _⟩ => ⟨k.val, k.isLt⟩
abbrev blkCol2 (j : S5000x16.Idx) (k : Fin 32) : S32x16.Idx := fun a => match a with
  | ⟨0, _⟩ => ⟨k.val, k.isLt⟩
  | ⟨1, _⟩ => ⟨(j 1).val, (j 1).isLt⟩

/-! ## The first kernel's block product -/

theorem lhs1_0 (j : S10000x32.Idx) (q : dot_S10000x256_S256x32_S10000x32_1_0_0_1_n_n.contr.Idx) :
    (dot_S10000x256_S256x32_S10000x32_1_0_0_1_n_n.lhsIdx j q 0).val = (j 0).val := by
  unfold DotDims.lhsIdx
  rw [dif_neg (show ¬(0 : Fin S10000x256.rank) ∈ dot_S10000x256_S256x32_S10000x32_1_0_0_1_n_n.lhsBatch by decide), dif_pos (show (0 : Fin S10000x256.rank) ∈ dot_S10000x256_S256x32_S10000x32_1_0_0_1_n_n.lhsNonContracting by decide)]
  rfl
theorem lhs1_1 (j : S10000x32.Idx) (q : dot_S10000x256_S256x32_S10000x32_1_0_0_1_n_n.contr.Idx) :
    (dot_S10000x256_S256x32_S10000x32_1_0_0_1_n_n.lhsIdx j q 1).val = (q ⟨0, by decide⟩).val :=
  dot_S10000x256_S256x32_S10000x32_1_0_0_1_n_n.lhsIdx_val_of_single rfl j q
theorem rhs1_0 (j : S10000x32.Idx) (q : dot_S10000x256_S256x32_S10000x32_1_0_0_1_n_n.contr.Idx) :
    (dot_S10000x256_S256x32_S10000x32_1_0_0_1_n_n.rhsIdx j q 0).val = (q ⟨0, by decide⟩).val :=
  dot_S10000x256_S256x32_S10000x32_1_0_0_1_n_n.rhsIdx_val_of_single rfl j q
theorem rhs1_1 (j : S10000x32.Idx) (q : dot_S10000x256_S256x32_S10000x32_1_0_0_1_n_n.contr.Idx) :
    (dot_S10000x256_S256x32_S10000x32_1_0_0_1_n_n.rhsIdx j q 1).val = (j 1).val := by
  unfold DotDims.rhsIdx
  rw [dif_neg (show ¬(1 : Fin S256x32.rank) ∈ dot_S10000x256_S256x32_S10000x32_1_0_0_1_n_n.rhsBatch by decide), dif_pos (show (1 : Fin S256x32.rank) ∈ dot_S10000x256_S256x32_S10000x32_1_0_0_1_n_n.rhsNonContracting by decide)]
  rfl

/-- The first body's stored value at a block index: the sum over the 256 contracted coordinates. -/
theorem blockProduct1 (x0 : Vec Ideal S10000x256 .f32) (x1 : Vec Ideal S256x32 .f32) (j : S10000x32.Idx) :
    k0_pay1 (F := Ideal) x0 x1 j = ∑ k : Fin 256, x0 (blkRow1 j k) * x1 (blkCol1 j k) := by
  unfold k0_pay1
  refine (Ideal.matmul_constant_zero_apply dot_S10000x256_S256x32_S10000x32_1_0_0_1_n_n none _ _ j).trans ?_
  rw [← Equiv.sum_comp (ValueIdx.contrEquiv1 dot_S10000x256_S256x32_S10000x32_1_0_0_1_n_n 256 rfl rfl).symm]
  refine Finset.sum_congr rfl fun k _ => ?_
  have hk := ValueIdx.contrEquiv1_symm_val dot_S10000x256_S256x32_S10000x32_1_0_0_1_n_n 256 rfl rfl k
  have el : dot_S10000x256_S256x32_S10000x32_1_0_0_1_n_n.lhsIdx j ((ValueIdx.contrEquiv1 dot_S10000x256_S256x32_S10000x32_1_0_0_1_n_n 256 rfl rfl).symm k) = blkRow1 j k := funext fun a => Fin.ext (by
    match a with
    | ⟨0, _⟩ => exact lhs1_0 _ _
    | ⟨1, _⟩ => exact (lhs1_1 _ _).trans hk)
  have er : dot_S10000x256_S256x32_S10000x32_1_0_0_1_n_n.rhsIdx j ((ValueIdx.contrEquiv1 dot_S10000x256_S256x32_S10000x32_1_0_0_1_n_n 256 rfl rfl).symm k) = blkCol1 j k := funext fun a => Fin.ext (by
    match a with
    | ⟨0, _⟩ => exact (rhs1_0 _ _).trans hk
    | ⟨1, _⟩ => exact rhs1_1 _ _)
  show x0 _ * x1 _ = _
  rw [el, er]

/-! ## The second kernel's block product -/

theorem lhs2_0 (j : S5000x16.Idx) (q : dot_S5000x32_S32x16_S5000x16_1_0_0_1_n_n.contr.Idx) :
    (dot_S5000x32_S32x16_S5000x16_1_0_0_1_n_n.lhsIdx j q 0).val = (j 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhs2_1 (j : S5000x16.Idx) (q : dot_S5000x32_S32x16_S5000x16_1_0_0_1_n_n.contr.Idx) :
    (dot_S5000x32_S32x16_S5000x16_1_0_0_1_n_n.lhsIdx j q 1).val = (q ⟨0, by decide⟩).val :=
  dot_S5000x32_S32x16_S5000x16_1_0_0_1_n_n.lhsIdx_val_of_single rfl j q
theorem rhs2_0 (j : S5000x16.Idx) (q : dot_S5000x32_S32x16_S5000x16_1_0_0_1_n_n.contr.Idx) :
    (dot_S5000x32_S32x16_S5000x16_1_0_0_1_n_n.rhsIdx j q 0).val = (q ⟨0, by decide⟩).val :=
  dot_S5000x32_S32x16_S5000x16_1_0_0_1_n_n.rhsIdx_val_of_single rfl j q
theorem rhs2_1 (j : S5000x16.Idx) (q : dot_S5000x32_S32x16_S5000x16_1_0_0_1_n_n.contr.Idx) :
    (dot_S5000x32_S32x16_S5000x16_1_0_0_1_n_n.rhsIdx j q 1).val = (j 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- The second body casts its block to its own shape (the identity) before the product. -/
theorem sameShape (x : Vec Ideal S5000x32 .f32) : shapeCast S5000x32 x shapeCasts_S5000x32_S5000x32 = x :=
  shapeCast_self x _

/-- The second body's stored value at a block index: the sum over the 32 contracted coordinates. -/
theorem blockProduct2 (x0 : Vec Ideal S5000x32 .f32) (x1 : Vec Ideal S32x16 .f32) (j : S5000x16.Idx) :
    k1_pay1 (F := Ideal) x0 x1 j = ∑ k : Fin 32, x0 (blkRow2 j k) * x1 (blkCol2 j k) := by
  unfold k1_pay1
  refine (Ideal.matmul_constant_zero_apply dot_S5000x32_S32x16_S5000x16_1_0_0_1_n_n none _ _ j).trans ?_
  rw [← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx j ((ValueIdx.contrEquiv1 dot_S5000x32_S32x16_S5000x16_1_0_0_1_n_n 32 rfl rfl).symm k) = blkRow2 j k := funext fun a => Fin.ext (by
    match a with
    | ⟨0, _⟩ => exact lhs2_0 _ _
    | ⟨1, _⟩ => exact (lhs2_1 _ _).trans hk)
  have er : dot_S5000x32_S32x16_S5000x16_1_0_0_1_n_n.rhsIdx j ((ValueIdx.contrEquiv1 dot_S5000x32_S32x16_S5000x16_1_0_0_1_n_n 32 rfl rfl).symm k) = blkCol2 j k := funext fun a => Fin.ext (by
    match a with
    | ⟨0, _⟩ => exact (rhs2_0 _ _).trans hk
    | ⟨1, _⟩ => exact rhs2_1 _ _)
  show (shapeCast S5000x32 x0 shapeCasts_S5000x32_S5000x32) _ * x1 _ = _
  rw [el, er, sameShape]

end Cert.KernelIdeal.Layers

end
-- ==== Proof.KernelRun.lean ====
/-
  The idealized kernel program's run with its RESULT named.

  The program is six segments: host operations, the first matmul region, host operations, the relu call,
  the second matmul region, host operations.  The contents of the TensorCore's buffers at each segment
  boundary are a fold from the launch memory (`W0` … `W6`): a host stretch applies its operations, a
  region replaces its arrays by what its write-backs leave.  Every weakly fair execution terminates, and the
  final memory holds, at every unscoped buffer, the last boundary's contents `W6`.  Here that is read at the
  result buffer `main_v61` as well as at the six arguments; the arguments walk back to the launch memory.
-/
import proofs.«125482_j67654324846925_2_alg».proof.Proof.Gen.KernelIdeal.Frame

set_option maxRecDepth 16384

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Layers

end
-- ==== Proof.KernelHost.lean ====
/-
  The idealized kernel program's result buffer as the encoder of the launch arrays.

  The boundary contents `W1` … `W6` are read at the buffers that matter: the pair sources, targets and
  weights computed before the first region; the first region's output array `main_v27`; the hidden table
  `main_v44` computed between the regions; the second region's output array `main_v45`; and the result
  `main_v61`.  A host stretch is read by applying its operations; a region leaves every buffer that is not
  one of its arrays as it found it.  What a region leaves in its output array is a hypothesis here
  (`hP₁`, `hP₂`: the array is a matrix product of the arrays the region found), discharged elsewhere.
-/
import proofs.«125482_j67654324846925_2_alg».proof.Proof.Gen.KernelIdeal.Frame
import proofs.«125482_j67654324846925_2_alg».proof.Proof.Layers

set_option maxRecDepth 16384

noncomputable section

namespace Cert.KernelIdeal.Layers

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

theorem entry0_sources (c : Dev nD) :
    W1 m ρ c (Proc.devRef .tc main_v3) = sources (m ((c : Thread nD τ).loc main_arg1)) := by
  dsimp only [W1, hostOps0]
  after_results
  rfl

theorem entry0_targets (c : Dev nD) :
    W1 m ρ c (Proc.devRef .tc main_v6) = targets (m ((c : Thread nD τ).loc main_arg1)) := by
  dsimp only [W1, hostOps0]
  after_results
  rfl

set_option maxHeartbeats 4000000 in
theorem entry0_weights (c : Dev nD) :
    W1 m ρ c (Proc.devRef .tc main_v26)
      = pairWeight (F := F) (sources (m ((c : Thread nD τ).loc main_arg1))) (targets (m ((c : Thread nD τ).loc main_arg1))) := by
  dsimp only [W1, hostOps0]
  after_results_simp
  rfl

theorem entry0_arg0 (c : Dev nD) : W1 m ρ c (Proc.devRef .tc main_arg0) = m ((c : Thread nD τ).loc main_arg0) := by
  dsimp only [W1, hostOps0]
  after_results
theorem entry0_arg2 (c : Dev nD) : W1 m ρ c (Proc.devRef .tc main_arg2) = m ((c : Thread nD τ).loc main_arg2) := by
  dsimp only [W1, hostOps0]
  after_results
theorem entry0_arg3 (c : Dev nD) : W1 m ρ c (Proc.devRef .tc main_arg3) = m ((c : Thread nD τ).loc main_arg3) := by
  dsimp only [W1, hostOps0]
  after_results
theorem entry0_arg4 (c : Dev nD) : W1 m ρ c (Proc.devRef .tc main_arg4) = m ((c : Thread nD τ).loc main_arg4) := by
  dsimp only [W1, hostOps0]
  after_results
theorem entry0_arg5 (c : Dev nD) : W1 m ρ c (Proc.devRef .tc main_arg5) = m ((c : Thread nD τ).loc main_arg5) := by
  dsimp only [W1, hostOps0]
  after_results

/-! ## Between the regions -/

set_option maxHeartbeats 4000000 in
/-- The hidden table is the first layer's chain applied to what the first region left. -/
theorem entry1_hidden (c : Dev nD) :
    W4 m ρ c (Proc.devRef .tc main_v44)
      = hiddenLayer (W2 m ρ c (Proc.devRef .tc main_v27)) (W2 m ρ c (Proc.devRef .tc main_v3)) (W2 m ρ c (Proc.devRef .tc main_v6))
          (W2 m ρ c (Proc.devRef .tc main_v26)) (W2 m ρ c (Proc.devRef .tc main_arg3)) := by
  dsimp only [W4, W3, hostOps1_1, hostOps1]
  after_results_simp
  rfl

/-- The host operations between the regions write none of these. -/
theorem entry1_keeps (c : Dev nD) :
    W4 m ρ c (Proc.devRef .tc main_v3) = W2 m ρ c (Proc.devRef .tc main_v3)
    ∧ W4 m ρ c (Proc.devRef .tc main_v6) = W2 m ρ c (Proc.devRef .tc main_v6)
    ∧ W4 m ρ c (Proc.devRef .tc main_v26) = W2 m ρ c (Proc.devRef .tc main_v26)
    ∧ W4 m ρ c (Proc.devRef .tc main_arg4) = W2 m ρ c (Proc.devRef .tc main_arg4)
    ∧ W4 m ρ c (Proc.devRef .tc main_arg5) = W2 m ρ c (Proc.devRef .tc main_arg5) := by
  refine ⟨?_, ?_, ?_, ?_, ?_⟩ <;>
  · dsimp only [W4, W3, hostOps1_1, hostOps1]
    after_results

/-! ## After the second region -/

set_option maxHeartbeats 4000000 in
theorem exit_result (c : Dev nD) :
    W6 m ρ c (Proc.devRef .tc main_v61)
      = outputLayer (W5 m ρ c (Proc.devRef .tc main_v45)) (W5 m ρ c (Proc.devRef .tc main_v3)) (W5 m ρ c (Proc.devRef .tc main_v6))
          (W5 m ρ c (Proc.devRef .tc main_v26)) (W5 m ρ c (Proc.devRef .tc main_arg5)) := by
  dsimp only [W6, hostOps2]
  after_results_simp
  rfl

/-! ## The whole fold -/

/-- If each region leaves in its output array the product `Pₖ` of the arrays it found in its two input windows, the result
    buffer ends at the encoder, over those products, of the six launch arrays. -/
theorem result_eq
    (P₁ : FVec F S100000x256 .f32 → FVec F S256x32 .f32 → FVec F S100000x32 .f32)
    (P₂ : FVec F S100000x32 .f32 → FVec F S32x16 .f32 → FVec F S100000x16 .f32)
    (hP₁ : ∀ c, (dat0 (V1 m ρ) c).arrAt 2 cfg0.N = P₁ (V1 m ρ c main_arg0) (V1 m ρ c main_arg2))
    (hP₂ : ∀ c, (dat1 (V4 m ρ) c).arrAt 2 cfg1.N = P₂ (V4 m ρ c main_v44) (V4 m ρ c main_arg4))
    (c : Dev nD) :
    W6 m ρ c (Proc.devRef .tc main_v61)
      = encoder P₁ P₂ (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  obtain ⟨k3, k6, k26, k4, k5⟩ := entry1_keeps m ρ c
  have r0 : W2 m ρ c (Proc.devRef .tc main_v27)
      = P₁ (m ((c : Thread nD τ).loc main_arg0)) (m ((c : Thread nD τ).loc main_arg2)) :=
    ((W2_arr m ρ c 2).trans (hP₁ c)).trans (by
      show P₁ (W1 m ρ c (Proc.devRef .tc main_arg0)) (W1 m ρ c (Proc.devRef .tc main_arg2)) = _
      rw [entry0_arg0, entry0_arg2])
  have r1 : W5 m ρ c (Proc.devRef .tc main_v45)
      = P₂ (W4 m ρ c (Proc.devRef .tc main_v44)) (m ((c : Thread nD τ).loc main_arg4)) :=
    ((W5_arr m ρ c 2).trans (hP₂ c)).trans (by
      show P₂ (W4 m ρ c (Proc.devRef .tc main_v44)) (W4 m ρ c (Proc.devRef .tc main_arg4)) = _
      rw [k4, W2_of_ne m ρ c main_arg4 (by decide), entry0_arg4])
  rw [exit_result, r1, entry1_hidden, r0,
    W5_of_ne m ρ c main_v3 (by decide), W5_of_ne m ρ c main_v6 (by decide), W5_of_ne m ρ c main_v26 (by decide),
    W5_of_ne m ρ c main_arg5 (by decide), k3, k6, k26, k5,
    W2_of_ne m ρ c main_v3 (by decide), W2_of_ne m ρ c main_v6 (by decide), W2_of_ne m ρ c main_v26 (by decide),
    W2_of_ne m ρ c main_arg3 (by decide), W2_of_ne m ρ c main_arg5 (by decide),
    entry0_sources, entry0_targets, entry0_weights, entry0_arg3, entry0_arg5]
  rfl

end Cert.KernelIdeal.Layers

end
-- ==== Proof.FirstRegion.lean ====
/-
  What the first matmul region leaves in its output array.

  The region runs over 10 grid points.  At point `t` the first window's block is rows `10000·t … 10000·t + 9999` of
  the 100000×256 array, the second window's block is the whole 256×32 weight matrix at every point, and the output
  window's block is rows `10000·t … 10000·t + 9999` of the 100000×32 result.  The body stores the block product,
  so what point `t` writes back is block `t` of the full product `x · W`; the 10 row blocks cover the result, so the
  array ends holding `x · W`.  All of it at whatever contents `V` the region is entered with.
-/
import proofs.«125482_j67654324846925_2_alg».proof.Proof.Gen.KernelIdeal.Frame
import proofs.«125482_j67654324846925_2_alg».proof.Proof.Products

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The body's rectangles start at the origin. -/
theorem origin0 : (![0, 0] : Fin 2 → Nat) = fun _ => 0 := funext fun a => by fin_cases a <;> rfl

/-- The printed index maps over the grid: the row windows are at block `t` on the row axis, the weight window at
    block 0, and nothing moves on the column axis. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block is some point's. -/
theorem blockOnto0 : ∀ q : Fin 10, ∃ t : Fin cfg0.N, t.val = q.val :=
  (by decide +kernel : ∀ q : Fin 10, ∃ t : Fin grid0.N, t.val = q.val)

/-- The row window's block at point `t`, at a block index, is the array at row `10000·t +` that row. -/
theorem rowsBlock0 (c : Dev nD) (t : Fin cfg0.N) (y : S10000x256.Idx) (k : S100000x256.Idx)
    (hk0 : (k 0).val = t.val * 10000 + (y 0).val) (hk1 : (k 1).val = (y 1).val) :
    (iblk0 V c 0 t : Vec Ideal S10000x256 .f32) y = (V c main_arg0 : S100000x256.Idx → Elt Ideal .f32) k := by
  obtain ⟨e0, e1, -⟩ := blockIndex0 t
  unfold iblk0
  rw [View.read_apply]
  show (V c main_arg0 : S100000x256.Idx → Elt Ideal .f32) _ = _
  refine congrArg (V c main_arg0 : S100000x256.Idx → Elt Ideal .f32) ?_
  funext a; apply Fin.ext
  match a with
  | ⟨0, _⟩ => show win0_0.index t 0 * 10000 + 1 * (y 0).val = (k 0).val; rw [e0, hk0]; omega
  | ⟨1, _⟩ => show win0_0.index t 1 * 256 + 1 * (y 1).val = (k 1).val; rw [e1, hk1]; omega

/-- The weight window's block at every point is the whole weight matrix. -/
theorem weightBlock0 (c : Dev nD) (t : Fin cfg0.N) (y : S256x32.Idx) (k : S256x32.Idx)
    (hk0 : (k 0).val = (y 0).val) (hk1 : (k 1).val = (y 1).val) :
    (iblk0 V c 1 t : Vec Ideal S256x32 .f32) y = (V c main_arg2 : S256x32.Idx → Elt Ideal .f32) k := by
  obtain ⟨-, -, e0, e1, -⟩ := blockIndex0 t
  unfold iblk0
  rw [View.read_apply]
  show (V c main_arg2 : S256x32.Idx → Elt Ideal .f32) _ = _
  refine congrArg (V c main_arg2 : S256x32.Idx → Elt Ideal .f32) ?_
  funext a; apply Fin.ext
  match a with
  | ⟨0, _⟩ => show win0_1.index t 0 * 256 + 1 * (y 0).val = (k 0).val; rw [e0, hk0]; omega
  | ⟨1, _⟩ => show win0_1.index t 1 * 32 + 1 * (y 1).val = (k 1).val; rw [e1, hk1]; omega

/-- Where an element of the output block at point `t` sits in the result array. -/
theorem outputBlockAt0 (t : Fin cfg0.N) (j : S10000x32.Idx) :
    ((((cfg0.win 2).blk t).view.emb j : S100000x32.Idx) 0).val = t.val * 10000 + (j 0).val
    ∧ ((((cfg0.win 2).blk t).view.emb j : S100000x32.Idx) 1).val = (j 1).val := by
  obtain ⟨-, -, -, -, e0, e1⟩ := blockIndex0 t
  constructor
  · show win0_2.index t 0 * 10000 + 1 * (j 0).val = _; rw [e0]; omega
  · show win0_2.index t 1 * 32 + 1 * (j 1).val = _; rw [e1]; omega

/-- WHAT POINT `t` WRITES BACK is block `t` of the product of the two arrays the region found. -/
theorem written0 (c : Dev nD) (t : Fin cfg0.N) :
    (dat0 V c).flushed 2 t = ((cfg0.win 2).blk t).view.read (Elt Ideal) (rowsTimes1 (V c main_arg0) (V c main_arg2)) := by
  show (cfg0.win 2).cut (grid0.coords t) ((dat0 V c).after 2 t) = _
  rw [after0_2]
  unfold out0_2
  rw [View.canon_unit_zero origin0]
  simp only [View.ld_unit_zero (S := S10000x256) origin0, View.ld_unit_zero (S := S256x32) origin0]
  funext j
  obtain ⟨p0, p1⟩ := outputBlockAt0 t j
  refine (blockProduct1 (iblk0 V c 0 t) (iblk0 V c 1 t) j).trans ?_
  show _ = rowsTimes1 (V c main_arg0) (V c main_arg2) (((cfg0.win 2).blk t).view.emb j)
  unfold rowsTimes1
  refine Finset.sum_congr rfl fun k _ => ?_
  rw [rowsBlock0 V c t (blkRow1 j k) (atRow1 (((cfg0.win 2).blk t).view.emb j) k) p0 rfl,
    weightBlock0 V c t (blkCol1 j k) (atCol1 (((cfg0.win 2).blk t).view.emb j) k) rfl p1]

/-- An index of the result is in point `t`'s block iff each coordinate is in the block's range on its axis. -/
theorem inBlock0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v27).slice (win0_2.rect t)).set ↔ _
  rw [View.set_slice_whole, Rect.mem_set_unit]
  exact Iff.rfl

/-- The 10 row blocks cover the result: row `r` is in block `r / 10000`. -/
theorem covered0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := blockOnto0 ⟨(i 0).val / 10000, by omega⟩
  have ht' : t.val = (i 0).val / 10000 := ht
  obtain ⟨-, -, -, -, e0, e1⟩ := blockIndex0 t
  refine ⟨t, flush0_2 t, ?_⟩
  rw [inBlock0]
  intro a
  match a with
  | ⟨0, _⟩ => show win0_2.index t (0 : Fin 2) * 10000 ≤ (i 0).val ∧ (i 0).val < win0_2.index t (0 : Fin 2) * 10000 + 10000; rw [e0, ht']; omega
  | ⟨1, _⟩ => show win0_2.index t (1 : Fin 2) * 32 ≤ (i 1).val ∧ (i 1).val < win0_2.index t (1 : Fin 2) * 32 + 32; rw [e1]; omega

/-- THE OUTPUT ARRAY after the region: the product of the two arrays the region found in its input windows. -/
theorem product0 (c : Dev nD) :
    (dat0 V c).arrAt 2 cfg0.N = rowsTimes1 (V c main_arg0) (V c main_arg2) :=
  (dat0 V c).arrAt_eq_of_cover 2 (rowsTimes1 (V c main_arg0) (V c main_arg2)) (fun t _ => written0 V c t) covered0

end Cert.KernelIdeal.Layers

end
-- ==== Proof.SecondRegion.lean ====
/-
  What the second matmul region leaves in its output array.

  The region runs over 20 grid points.  At point `t` the first window's block is rows `5000·t … 5000·t + 4999` of
  the 100000×32 array, the second window's block is the whole 32×16 weight matrix at every point, and the output
  window's block is rows `5000·t … 5000·t + 4999` of the 100000×16 result.  The body stores the block product,
  so what point `t` writes back is block `t` of the full product `x · W`; the 20 row blocks cover the result, so the
  array ends holding `x · W`.  All of it at whatever contents `V` the region is entered with.
-/
import proofs.«125482_j67654324846925_2_alg».proof.Proof.Gen.KernelIdeal.Frame
import proofs.«125482_j67654324846925_2_alg».proof.Proof.Products

set_option maxRecDepth 16384

noncomputable section

namespace Cert.KernelIdeal.Layers

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-- The body's rectangles start at the origin. -/
theorem origin1 : (![0, 0] : Fin 2 → Nat) = fun _ => 0 := funext fun a => by fin_cases a <;> rfl

/-- The printed index maps over the grid: the row windows are at block `t` on the row axis, the weight window at
    block 0, and nothing moves on the column axis. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every row block is some point's. -/
theorem blockOnto1 : ∀ q : Fin 20, ∃ t : Fin cfg1.N, t.val = q.val :=
  (by decide +kernel : ∀ q : Fin 20, ∃ t : Fin grid1.N, t.val = q.val)

/-- The row window's block at point `t`, at a block index, is the array at row `5000·t +` that row. -/
theorem rowsBlock1 (c : Dev nD) (t : Fin cfg1.N) (y : S5000x32.Idx) (k : S100000x32.Idx)
    (hk0 : (k 0).val = t.val * 5000 + (y 0).val) (hk1 : (k 1).val = (y 1).val) :
    (iblk1 V c 0 t : Vec Ideal S5000x32 .f32) y = (V c main_v44 : S100000x32.Idx → Elt Ideal .f32) k := by
  obtain ⟨e0, e1, -⟩ := blockIndex1 t
  unfold iblk1
  rw [View.read_apply]
  show (V c main_v44 : S100000x32.Idx → Elt Ideal .f32) _ = _
  refine congrArg (V c main_v44 : S100000x32.Idx → Elt Ideal .f32) ?_
  funext a; apply Fin.ext
  match a with
  | ⟨0, _⟩ => show win1_0.index t 0 * 5000 + 1 * (y 0).val = (k 0).val; rw [e0, hk0]; omega
  | ⟨1, _⟩ => show win1_0.index t 1 * 32 + 1 * (y 1).val = (k 1).val; rw [e1, hk1]; omega

/-- The weight window's block at every point is the whole weight matrix. -/
theorem weightBlock1 (c : Dev nD) (t : Fin cfg1.N) (y : S32x16.Idx) (k : S32x16.Idx)
    (hk0 : (k 0).val = (y 0).val) (hk1 : (k 1).val = (y 1).val) :
    (iblk1 V c 1 t : Vec Ideal S32x16 .f32) y = (V c main_arg4 : S32x16.Idx → Elt Ideal .f32) k := by
  obtain ⟨-, -, e0, e1, -⟩ := blockIndex1 t
  unfold iblk1
  rw [View.read_apply]
  show (V c main_arg4 : S32x16.Idx → Elt Ideal .f32) _ = _
  refine congrArg (V c main_arg4 : S32x16.Idx → Elt Ideal .f32) ?_
  funext a; apply Fin.ext
  match a with
  | ⟨0, _⟩ => show win1_1.index t 0 * 32 + 1 * (y 0).val = (k 0).val; rw [e0, hk0]; omega
  | ⟨1, _⟩ => show win1_1.index t 1 * 16 + 1 * (y 1).val = (k 1).val; rw [e1, hk1]; omega

/-- Where an element of the output block at point `t` sits in the result array. -/
theorem outputBlockAt1 (t : Fin cfg1.N) (j : S5000x16.Idx) :
    ((((cfg1.win 2).blk t).view.emb j : S100000x16.Idx) 0).val = t.val * 5000 + (j 0).val
    ∧ ((((cfg1.win 2).blk t).view.emb j : S100000x16.Idx) 1).val = (j 1).val := by
  obtain ⟨-, -, -, -, e0, e1⟩ := blockIndex1 t
  constructor
  · show win1_2.index t 0 * 5000 + 1 * (j 0).val = _; rw [e0]; omega
  · show win1_2.index t 1 * 16 + 1 * (j 1).val = _; rw [e1]; omega

/-- WHAT POINT `t` WRITES BACK is block `t` of the product of the two arrays the region found. -/
theorem written1 (c : Dev nD) (t : Fin cfg1.N) :
    (dat1 V c).flushed 2 t = ((cfg1.win 2).blk t).view.read (Elt Ideal) (rowsTimes2 (V c main_v44) (V c main_arg4)) := by
  show (cfg1.win 2).cut (grid1.coords t) ((dat1 V c).after 2 t) = _
  rw [after1_2]
  unfold out1_2
  rw [View.canon_unit_zero origin1]
  simp only [View.ld_unit_zero (S := S5000x32) origin1, View.ld_unit_zero (S := S32x16) origin1]
  funext j
  obtain ⟨p0, p1⟩ := outputBlockAt1 t j
  refine (blockProduct2 (iblk1 V c 0 t) (iblk1 V c 1 t) j).trans ?_
  show _ = rowsTimes2 (V c main_v44) (V c main_arg4) (((cfg1.win 2).blk t).view.emb j)
  unfold rowsTimes2
  refine Finset.sum_congr rfl fun k _ => ?_
  rw [rowsBlock1 V c t (blkRow2 j k) (atRow2 (((cfg1.win 2).blk t).view.emb j) k) p0 rfl,
    weightBlock1 V c t (blkCol2 j k) (atCol2 (((cfg1.win 2).blk t).view.emb j) k) rfl p1]

/-- An index of the result is in point `t`'s block iff each coordinate is in the block's range on its axis. -/
theorem inBlock1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- The 20 row blocks cover the result: row `r` is in block `r / 5000`. -/
theorem covered1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := blockOnto1 ⟨(i 0).val / 5000, by omega⟩
  have ht' : t.val = (i 0).val / 5000 := ht
  obtain ⟨-, -, -, -, e0, e1⟩ := blockIndex1 t
  refine ⟨t, flush1_2 t, ?_⟩
  rw [inBlock1]
  intro a
  match a with
  | ⟨0, _⟩ => show win1_2.index t (0 : Fin 2) * 5000 ≤ (i 0).val ∧ (i 0).val < win1_2.index t (0 : Fin 2) * 5000 + 5000; rw [e0, ht']; omega
  | ⟨1, _⟩ => show win1_2.index t (1 : Fin 2) * 16 ≤ (i 1).val ∧ (i 1).val < win1_2.index t (1 : Fin 2) * 16 + 16; rw [e1]; omega

/-- THE OUTPUT ARRAY after the region: the product of the two arrays the region found in its input windows. -/
theorem product1 (c : Dev nD) :
    (dat1 V c).arrAt 2 cfg1.N = rowsTimes2 (V c main_v44) (V c main_arg4) :=
  (dat1 V c).arrAt_eq_of_cover 2 (rowsTimes2 (V c main_v44) (V c main_arg4)) (fun t _ => written1 V c t) covered1

end Cert.KernelIdeal.Layers

end
-- ==== Proof.ReferenceValue.lean ====
/-
  The reference's result is the encoder of its launch arrays, over the plain matrix products.

  The reference computes the two products by the host's `dot_general`, which over the extended reals is the
  sum over the contracted axis, and applies to them the same chains of host operations as the kernel's
  program (it computes the pair weights once per layer; the two copies are one term).
-/
import proofs.«125482_j67654324846925_2_alg».proof.Proof.Gen.ReferenceIdeal.Run
import proofs.«125482_j67654324846925_2_alg».proof.Proof.Gen.ReferenceIdeal.Read
import proofs.«125482_j67654324846925_2_alg».proof.Proof.Layers
import proofs.«125482_j67654324846925_2_alg».proof.Proof.Products

set_option maxRecDepth 16384

noncomputable section

namespace Cert.ReferenceIdeal.RefValue

open Cert.ReferenceIdeal Cert.ReferenceIdeal.Gen
open Idealize.ShloMosaic Idealize.ShloMosaic.TcCoe Idealize.SL.Sem
open Cert.KernelIdeal.Layers

/-- The host's first product is `x · W₁`. -/
theorem hostProduct1 (x : FVec Ideal S100000x256 .f32) (W : FVec Ideal S256x32 .f32) :
    Host.dotGeneral (F := Ideal) dot_S100000x256_S256x32_S100000x32_1_0_0_1_n_n none x W = rowsTimes1 x W := by
  funext i
  refine Eq.trans (show _ = _ from Read.val_main_v7_apply x W i) ?_
  unfold rowsTimes1
  refine Finset.sum_congr rfl fun k _ => ?_
  have el : Read.lidx_main_v7 i k = atRow1 i k := funext fun a => by
    match a with
    | ⟨0, _⟩ => rfl
    | ⟨1, _⟩ => rfl
  have er : Read.ridx_main_v7 i k = atCol1 i k := funext fun a => by
    match a with
    | ⟨0, _⟩ => rfl
    | ⟨1, _⟩ => rfl
  rw [el, er]

/-- The host's second product is `h · W₂`. -/
theorem hostProduct2 (h : FVec Ideal S100000x32 .f32) (W : FVec Ideal S32x16 .f32) :
    Host.dotGeneral (F := Ideal) dot_S100000x32_S32x16_S100000x16_1_0_0_1_n_n none h W = rowsTimes2 h W := by
  funext i
  simp only [Host.dotGeneral]
  rw [Ideal.dotGeneral_apply, ← Equiv.sum_comp (ValueIdx.contrEquiv1 dot_S100000x32_S32x16_S100000x16_1_0_0_1_n_n 32 rfl rfl).symm]
  unfold rowsTimes2
  refine Finset.sum_congr rfl fun k _ => ?_
  have hk := ValueIdx.contrEquiv1_symm_val dot_S100000x32_S32x16_S100000x16_1_0_0_1_n_n 32 rfl rfl k
  have el : dot_S100000x32_S32x16_S100000x16_1_0_0_1_n_n.lhsIdx i ((ValueIdx.contrEquiv1 dot_S100000x32_S32x16_S100000x16_1_0_0_1_n_n 32 rfl rfl).symm k) = atRow2 i k := funext fun a => Fin.ext (by
    match a with
    | ⟨0, _⟩ => exact Read.lhs_main_v45_0 _ _
    | ⟨1, _⟩ => exact (Read.lhs_main_v45_1 _ _).trans hk)
  have er : dot_S100000x32_S32x16_S100000x16_1_0_0_1_n_n.rhsIdx i ((ValueIdx.contrEquiv1 dot_S100000x32_S32x16_S100000x16_1_0_0_1_n_n 32 rfl rfl).symm k) = atCol2 i k := funext fun a => Fin.ext (by
    match a with
    | ⟨0, _⟩ => exact (Read.rhs_main_v45_0 _ _).trans hk
    | ⟨1, _⟩ => exact Read.rhs_main_v45_1 _ _)
  rw [el, er]

set_option maxHeartbeats 4000000 in
/-- The run's composed term is the encoder over the host's two products: the same operations in the same order. -/
theorem result_spelt {F : FTy → Type} [FloatOps F] (m : (ℓ : Loc nD τ sig) → Buf (Elt F) ℓ) (c : Dev nD) :
    Value.res_main_v81 m c
      = encoder (fun x W => Host.dotGeneral dot_S100000x256_S256x32_S100000x32_1_0_0_1_n_n none x W)
          (fun h W => Host.dotGeneral dot_S100000x32_S32x16_S100000x16_1_0_0_1_n_n none h W)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Value.res_main_v81 encoder outputLayer hiddenLayer pairWeight invSqrtDeg wrapIdx sources targets
  rfl

/-- The reference's result is the encoder, over the plain products, of its launch arrays. -/
theorem result_eq (m : (ℓ : Loc nD τ sig) → Buf (Elt Ideal) ℓ) (c : Dev nD) :
    Value.res_main_v81 m c
      = encoder rowsTimes1 rowsTimes2
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [result_spelt,
    show (fun (x : FVec Ideal S100000x256 .f32) (W : FVec Ideal S256x32 .f32) => Host.dotGeneral (F := Ideal) dot_S100000x256_S256x32_S100000x32_1_0_0_1_n_n none x W) = rowsTimes1
      from funext fun x => funext fun W => hostProduct1 x W,
    show (fun (h : FVec Ideal S100000x32 .f32) (W : FVec Ideal S32x16 .f32) => Host.dotGeneral (F := Ideal) dot_S100000x32_S32x16_S100000x16_1_0_0_1_n_n none h W) = rowsTimes2
      from funext fun h => funext fun W => hostProduct2 h W]

end Cert.ReferenceIdeal.RefValue

end
-- ==== Proof.lean ====
/-
  A two-layer graph-convolution encoder: the kernel's program against its plain reference, over the extended reals.

  Both programs build the same 3300000 (source, target) pairs from the edge list and the self-loops, the same
  pair weights `deg(s)^(-1/2) · deg(d)^(-1/2)`, and apply the same gather / scale / scatter-add / bias chain twice,
  with `max(·, 0)` in between.  They differ only in how the two matrix products `x · W₁` and `h · W₂` are
  computed: the reference by the host's `dot_general`, the kernel's program by a pipelined MXU kernel over blocks
  of 10000 (resp. 5000) rows, the operands rounded to bf16 first.  Over the extended reals the rounding is the
  identity, each block product is the sum over the contracted axis, and the row blocks tile the result, so each
  region leaves exactly `x · W` in its output array (Proof/FirstRegion.lean, Proof/SecondRegion.lean over
  Proof/Products.lean).  The kernel program's result is then the encoder of the launch arrays
  (Proof/KernelRun.lean: its run with the result named; Proof/KernelHost.lean: the host stretches read), and so is
  the reference's (Proof/ReferenceValue.lean); Proof/Layers.lean states the encoder.  No law of the extended
  reals beyond `0 + s = s` is used, so the finiteness precondition is never opened.  The ideal pass rewrote no
  operation, so there is nothing to preserve.
-/
import proofs.«125482_j67654324846925_2_alg».proof.Defs
import proofs.«125482_j67654324846925_2_alg».proof.Proof.Gen.Kernel
import proofs.«125482_j67654324846925_2_alg».proof.Proof.Gen.Kernel.Frame
import proofs.«125482_j67654324846925_2_alg».proof.Proof.Gen.KernelIdeal
import proofs.«125482_j67654324846925_2_alg».proof.Proof.Gen.KernelIdeal.Frame
import proofs.«125482_j67654324846925_2_alg».proof.Proof.Gen.ReferenceIdeal
import proofs.«125482_j67654324846925_2_alg».proof.Proof.Gen.ReferenceIdeal.Run
import proofs.«125482_j67654324846925_2_alg».proof.Proof.Gen.ReferenceIdeal.Read
import proofs.«125482_j67654324846925_2_alg».proof.Proof.Gen.Pre_finite_inputs
import proofs.«125482_j67654324846925_2_alg».proof.Proof.Layers
import proofs.«125482_j67654324846925_2_alg».proof.Proof.Products
import proofs.«125482_j67654324846925_2_alg».proof.Proof.KernelRun
import proofs.«125482_j67654324846925_2_alg».proof.Proof.KernelHost
import proofs.«125482_j67654324846925_2_alg».proof.Proof.FirstRegion
import proofs.«125482_j67654324846925_2_alg».proof.Proof.SecondRegion
import proofs.«125482_j67654324846925_2_alg».proof.Proof.ReferenceValue

noncomputable section

namespace Cert.Proof

open Idealize.ShloMosaic Idealize.ShloMosaic.TcCoe Idealize.SL.Sem
open Cert.KernelIdeal.Layers

/-- The kernel program's run: the result buffer ends at the encoder of the launch arrays, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v61)
          = encoder rowsTimes1 rowsTimes2
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun r h c => ⟨(h c).1.trans (result_eq m ρ rowsTimes1 rowsTimes2
        (fun c => product0 (Cert.KernelIdeal.Gen.V1 m ρ) c) (fun c => product1 (Cert.KernelIdeal.Gen.V4 m ρ) c) c), (h c).2⟩)
    (run_result m ρ)

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the encoder of arrays that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
